-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S_ : Shape := ⟨0, ![]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel

variable [Facts]

def fn {F : FTy → Type} [FloatOps F] (main_arg0 : FVec F S4000000x4 .f32) (main_arg1 : FVec F S4000000x4 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  let main_v4 : FVec F S4000000x4 .f32 := Host.absf main_arg1
  let main_cst_0 : FVec F S_ .f32 := constant S_ .f32 0x7F800000#32
  let main_v5 : FVec F S4000000x4 .f32 := broadcastInDim S4000000x4 ![] bcast_S_S4000000x4 main_cst_0
  let main_v6 : IVec S4000000x4 1 := cmpf .olt main_v4 main_v5
  let main_c_1 : IVec S_ 1 := constantI S_ 1 1#1
  let main_v7 : IVec S_ 1 := (fun x v => Host.reduce IntOp.andi x v reducesTo_S4000000x4_S_d0_1 h_S_) main_v6 main_c_1
  let main_v8 : IVec S_ 1 := andi main_v3 main_v7
  main_v8
-- ==== Kernel.lean ====
abbrev S4000000x4 : Shape := ⟨2, ![4000000, 4]⟩
abbrev S1x1 : Shape := ⟨2, ![1, 1]⟩
abbrev S3200x4 : Shape := ⟨2, ![3200, 4]⟩
abbrev S3200x2 : Shape := ⟨2, ![3200, 2]⟩
abbrev S3200x1 : Shape := ⟨2, ![3200, 1]⟩
abbrev S3200 : Shape := ⟨1, ![3200]⟩
abbrev S25x128 : Shape := ⟨2, ![25, 128]⟩
abbrev S25 : Shape := ⟨1, ![25]⟩
abbrev S25x1 : Shape := ⟨2, ![25, 1]⟩
abbrev S1 : Shape := ⟨1, ![1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S4000000x4, .f32⟩
  | .hbm, ⟨1, _⟩ => ⟨S4000000x4, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S3200x4, .f32⟩
  | .local _ .vmem, ⟨1, _⟩ => ⟨S3200x4, .f32⟩
  | .local _ .vmem, ⟨2, _⟩ => ⟨S3200x4, .f32⟩
  | .local _ .vmem, ⟨3, _⟩ => ⟨S3200x4, .f32⟩
  | .local _ .vmem, ⟨4, _⟩ => ⟨S1x1, .f32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![1250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3200x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S3200x4_S3200x4_0_0 : ∀ a, (![0, 0] : Fin 2 → Nat) a + S3200x4.size a ≤ S3200x4.size a
  h_S3200x4 : 0 < S3200x4.numel
  slices_S3200x4_o0_0_S3200x2 : S3200x4.Slices ![0, 0] S3200x2
  slices_S3200x4_o0_2_S3200x2 : S3200x4.Slices ![0, 2] S3200x2
  slices_S3200x2_o0_0_S3200x1 : S3200x2.Slices ![0, 0] S3200x1
  shapeCasts_S3200x1_S3200 : S3200x1.ShapeCasts S3200
  slices_S3200x2_o0_1_S3200x1 : S3200x2.Slices ![0, 1] S3200x1
  slices_S3200x4_o0_2_S3200x1 : S3200x4.Slices ![0, 2] S3200x1
  slices_S3200x4_o0_0_S3200x1 : S3200x4.Slices ![0, 0] S3200x1
  slices_S3200x4_o0_3_S3200x1 : S3200x4.Slices ![0, 3] S3200x1
  slices_S3200x4_o0_1_S3200x1 : S3200x4.Slices ![0, 1] S3200x1
  shapeCasts_S3200_S25x128 : S3200.ShapeCasts S25x128
  reduces_S25x128_S25 : S25x128.Reduces [1] S25
  shapeCasts_S25_S25x1 : S25.ShapeCasts S25x1
  reduces_S25x1_S1 : S25x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x4.size a ≤ S4000000x4.size a
  hwx0_0 : ∀ i : grid0.Coords, EltTy.bits .f32 = 32 ∨ (Rect.block (s := S4000000x4) S3200x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x4.size a ≤ S4000000x4.size a
  hwx0_1 : ∀ i : grid0.Coords, EltTy.bits .f32 = 32 ∨ (Rect.block (s := S4000000x4) S3200x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S3200x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3200x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x4 : Shape := ⟨2, ![4000000, 4]⟩
abbrev S4000000x2 : Shape := ⟨2, ![4000000, 2]⟩
abbrev S_ : Shape := ⟨0, ![]⟩
abbrev S4000000x1 : Shape := ⟨2, ![4000000, 1]⟩
abbrev S4000000 : Shape := ⟨1, ![4000000]⟩

abbrev nBuf : Space → Nat
  | .hbm => 50
  | .vmem => 0
  | .smem => 0
  | _ => 0

abbrev bufTy : (tb : Table) → Fin (tcTables nBuf tb) → BufTy
  | .hbm, ⟨0, _⟩ => ⟨S4000000x4, .f32⟩
  | .hbm, ⟨1, _⟩ => ⟨S4000000x4, .f32⟩
  | .hbm, ⟨2, _⟩ => ⟨S4000000x2, .f32⟩
  | .hbm, ⟨3, _⟩ => ⟨S4000000x2, .f32⟩
  | .hbm, ⟨4, _⟩ => ⟨S4000000x2, .f32⟩
  | .hbm, ⟨5, _⟩ => ⟨S4000000x2, .f32⟩
  | .hbm, ⟨6, _⟩ => ⟨S4000000x2, .f32⟩
  | .hbm, ⟨7, _⟩ => ⟨S4000000x2, .f32⟩
  | .hbm, ⟨8, _⟩ => ⟨S4000000x2, .f32⟩
  | .hbm, ⟨9, _⟩ => ⟨S_, .f32⟩
  | .hbm, ⟨10, _⟩ => ⟨S_, .f32⟩
  | .hbm, ⟨11, _⟩ => ⟨S4000000x2, .f32⟩
  | .hbm, ⟨12, _⟩ => ⟨S4000000x2, .f32⟩
  | .hbm, ⟨13, _⟩ => ⟨S4000000x1, .f32⟩
  | .hbm, ⟨14, _⟩ => ⟨S4000000, .f32⟩
  | .hbm, ⟨15, _⟩ => ⟨S4000000x1, .f32⟩
  | .hbm, ⟨16, _⟩ => ⟨S4000000, .f32⟩
  | .hbm, ⟨17, _⟩ => ⟨S4000000, .f32⟩
  | .hbm, ⟨18, _⟩ => ⟨S4000000x1, .f32⟩
  | .hbm, ⟨19, _⟩ => ⟨S4000000, .f32⟩
  | .hbm, ⟨20, _⟩ => ⟨S4000000x1, .f32⟩
  | .hbm, ⟨21, _⟩ => ⟨S4000000, .f32⟩
  | .hbm, ⟨22, _⟩ => ⟨S4000000, .f32⟩
  | .hbm, ⟨23, _⟩ => ⟨S4000000x1, .f32⟩
  | .hbm, ⟨24, _⟩ => ⟨S4000000, .f32⟩
  | .hbm, ⟨25, _⟩ => ⟨S4000000x1, .f32⟩
  | .hbm, ⟨26, _⟩ => ⟨S4000000, .f32⟩
  | .hbm, ⟨27, _⟩ => ⟨S4000000, .f32⟩
  | .hbm, ⟨28, _⟩ => ⟨S4000000, .f32⟩
  | .hbm, ⟨29, _⟩ => ⟨S4000000x1, .f32⟩
  | .hbm, ⟨30, _⟩ => ⟨S4000000, .f32⟩
  | .hbm, ⟨31, _⟩ => ⟨S4000000x1, .f32⟩
  | .hbm, ⟨32, _⟩ => ⟨S4000000, .f32⟩
  | .hbm, ⟨33, _⟩ => ⟨S4000000, .f32⟩
  | .hbm, ⟨34, _⟩ => ⟨S4000000x1, .f32⟩
  | .hbm, ⟨35, _⟩ => ⟨S4000000, .f32⟩
  | .hbm, ⟨36, _⟩ => ⟨S4000000x1, .f32⟩
  | .hbm, ⟨37, _⟩ => ⟨S4000000, .f32⟩
  | .hbm, ⟨38, _⟩ => ⟨S4000000, .f32⟩
  | .hbm, ⟨39, _⟩ => ⟨S4000000, .f32⟩
  | .hbm, ⟨40, _⟩ => ⟨S4000000, .f32⟩
  | .hbm, ⟨41, _⟩ => ⟨S4000000, .f32⟩
  | .hbm, ⟨42, _⟩ => ⟨S4000000, .f32⟩
  | .hbm, ⟨43, _⟩ => ⟨S_, .f32⟩
  | .hbm, ⟨44, _⟩ => ⟨S4000000, .f32⟩
  | .hbm, ⟨45, _⟩ => ⟨S4000000, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_0 : Ref sig .tc := ⟨.hbm, 43, rfl⟩
abbrev main_v38 : Ref sig .tc := ⟨.hbm, 44, rfl⟩
abbrev main_v39 : Ref sig .tc := ⟨.hbm, 45, rfl⟩
abbrev main_cst_1 : Ref sig .tc := ⟨.hbm, 46, rfl⟩
abbrev main_v40 : Ref sig .tc := ⟨.hbm, 47, rfl⟩
abbrev main_cst_2 : Ref sig .tc := ⟨.hbm, 48, rfl⟩
abbrev main_v41 : Ref sig .tc := ⟨.hbm, 49, rfl⟩

abbrev nD : Nat := 1
abbrev τ : Topo := Topo.v7x

variable {F : FTy → Type} [FloatOps F]

class Facts₀ : Prop where
  slices_S4000000x4_S4000000x2_0_0 : S4000000x4.Slices ![0, 0] S4000000x2
  slices_S4000000x4_S4000000x2_0_2 : S4000000x4.Slices ![0, 2] S4000000x2
  bcast_S_S4000000x2 : S_.BroadcastsInDim S4000000x2 (![] : Fin 0 → Fin S4000000x2.rank)
  slices_S4000000x2_S4000000x1_0_0 : S4000000x2.Slices ![0, 0] S4000000x1
  shapeCasts_S4000000x1_S4000000 : S4000000x1.ShapeCasts S4000000
  slices_S4000000x2_S4000000x1_0_1 : S4000000x2.Slices ![0, 1] S4000000x1
  slices_S4000000x4_S4000000x1_0_2 : S4000000x4.Slices ![0, 2] S4000000x1
  slices_S4000000x4_S4000000x1_0_0 : S4000000x4.Slices ![0, 0] S4000000x1
  slices_S4000000x4_S4000000x1_0_3 : S4000000x4.Slices ![0, 3] S4000000x1
  slices_S4000000x4_S4000000x1_0_1 : S4000000x4.Slices ![0, 1] S4000000x1
  bcast_S_S4000000 : S_.BroadcastsInDim S4000000 (![] : Fin 0 → Fin S4000000.rank)
  reducesTo_S4000000_S_d0 : S4000000.ReducesTo [0] S_
  h_S_ : 0 < S_.numel

variable [Facts₀]

class Facts : Prop extends Facts₀ where

variable [Facts]
-- ==== Proof.RunningSum.lean ====
/-
  The kernel's run, read: the accumulator after each grid point, and the mean it ends with.

  The kernel's one output block `[1, 1]` never moves: it is zeroed at the first grid point, every point adds its block's value
  `k0_pay3` (Proof/BlockLoss.lean reads it) to what the point before left, and it is written back to the `[1, 1]` result array
  once, after the last point, 1249. So what the frame run found the output's staging buffer to hold after point `n`
  (`Gen.outsAt0`, by recursion on the point over the two control cases) is the running value `(0 + v₀) + v₁ + … + vₙ`, by
  induction on the point; the result array ends at the running value after point 1249; and the three host operations
  after the region — view the `[1, 1]` array as a scalar, the constant 4000000.0, divide — leave the mean in the program's
  result. All of this holds at every float instance: no arithmetic is opened here.
-/
import proofs.«171073_j31336081391705_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.RunningSum

open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The `[1, 1]` block of `+0.0` the first point stores. -/
abbrev zero : Vec F S1x1 .f32 := broadcast S1x1 (Scalar.ofBits .f32 0x00000000#32)

/-- A point other than the first: the output's buffer holds `xo`, the body loads it and the two input blocks and stores
    `xo + v`, `v` the blocks' value — its one store, covering the block. -/
theorem out_B (c : Dev nD) (i : grid0.Coords) (a1 : Memref sig .tc .vmem S3200x4 .f32) (h1 : a1.IsWhole)
    (a2 : Memref sig .tc .vmem S3200x4 .f32) (h2 : a2.IsWhole) (a3 : Memref sig .tc .vmem S1x1 .f32) (h3 : a3.IsWhole)
    (hc : ¬cond0_0 i) (x0 x1 : Vec F S3200x4 .f32) (xo : Vec F S1x1 .f32) :
    out0_B_2 c i a1 h1 a2 h2 a3 h3 hc x0 x1 xo = addf xo (k0_pay3 x0 x1) := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  unfold k0_pay2
  simp only [View.readAt_eq_ld, h1.read_unread, h2.read_unread, h3.read_unread, View.ld_unit_zero (S := S3200x4) hz,
    View.ld_unit_zero (S := S1x1) hz, shapeCast_self]

/-- The first point: the body stores the zero block, loads it back, and stores `0 + v` over it. -/
theorem out_A (c : Dev nD) (i : grid0.Coords) (a1 : Memref sig .tc .vmem S3200x4 .f32) (h1 : a1.IsWhole)
    (a2 : Memref sig .tc .vmem S3200x4 .f32) (h2 : a2.IsWhole) (a3 : Memref sig .tc .vmem S1x1 .f32) (h3 : a3.IsWhole)
    (hc : cond0_0 i) (x0 x1 : Vec F S3200x4 .f32) :
    out0_A_2 c i a1 h1 a2 h2 a3 h3 hc x0 x1 = addf zero (k0_pay3 x0 x1) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz, View.readCov_unit_zero (S := S1x1) _ hz]
  unfold k0_pay2 k0_pay1
  simp only [View.readAt_eq_ld, h1.read_unread, h2.read_unread, View.ld_unit_zero (S := S3200x4) hz,
    View.ld_unit_zero (S := S1x1) hz, shapeCast_self]

/-- The running value after point `n`: `0 + v₀`, then `+ vₙ`, each `v` the value of the point's two input blocks. -/
def chain (c : Dev nD) : (n : ℕ) → n < cfg0.N → Vec F S1x1 .f32
  | 0, h => addf zero (k0_pay3 (iblk m c 0 ⟨0, h⟩) (iblk m c 1 ⟨0, h⟩))
  | n + 1, h => addf (chain c n (Nat.lt_of_succ_lt h)) (k0_pay3 (iblk m c 0 ⟨n + 1, h⟩) (iblk m c 1 ⟨n + 1, h⟩))

/-- What the output's staging buffer holds after point `n` is the running value: by induction on the point. -/
theorem outsAt_eq (c : Dev nD) : ∀ (n : ℕ) (h : n < cfg0.N), outsAt0 m c n h = chain m c n h
  | 0, h => (outsAt0_A m c ⟨0, h⟩ rfl).trans (out_A ..)
  | n + 1, h => by
    have hN : cfg0.N = 1250 := N_0
    have hB : ¬(⟨n + 1, h⟩ : Fin cfg0.N).val % 1250 = 0 := by dsimp only; omega
    rw [outsAt0_B m c ⟨n + 1, h⟩ hB, out_B]
    show addf (outsAt0 m c n _) _ = addf (chain m c n _) _
    rw [outsAt_eq c n]

theorem lastLt : 1249 < cfg0.N := by rw [show cfg0.N = 1250 from N_0]; decide
/-- The last grid point, the one write-back's. -/
abbrev last : Fin cfg0.N := ⟨1249, lastLt⟩

/-- The running value after the last point, as contents of the `[1, 1]` result array (its one block is the array). -/
abbrev total (c : Dev nD) : Buf (Elt F) ((c : Thread nD τ).loc main_v0) := chain m c 1249 lastLt

/-- The output's block index is `(0, 0)` at every point. -/
theorem index_zero (t : Fin cfg0.N) (a : Fin 2) : win0_2.index t a = 0 := by
  fin_cases a <;> rfl

/-- The one write-back writes the running value after the last point: block `(0, 0)` of the `[1, 1]` array is the array. -/
theorem flushed_eq (c : Dev nD) (t : Fin cfg0.N) (hf : (cfg0.win 2).flush t = true) :
    (dats m 0 c).flushed 2 t = ((cfg0.win 2).blk t).view.read (Elt F) (total m c) := by
  have hN : cfg0.N = 1250 := N_0
  have h3 : t.val = 1249 := by have := (flush0_2 t).mp hf; have := t.isLt; omega
  obtain rfl : t = last := Fin.ext h3
  show (cfg0.win 2).cut (grid0.coords last) ((dats m 0 c).after 2 last) = _
  rw [after0_2, outsAt_eq]
  have hz' : (fun a => win0_2.index last a * main_v0.ty.shape.size a) = fun _ => 0 :=
    funext fun a => by rw [index_zero]; exact Nat.zero_mul _
  exact (Memref.read_access_unit_zero (Elt F) main_v0 hz' (fun a => by rw [congrFun hz' a]; simp) (total m c)).symm

/-- So the result array of the region ends at the running value after the last point: that point's block covers it. -/
theorem final_o (c : Dev nD) : (dats m 0 c).arrAt 2 cfg0.N = total m c :=
  (dats m 0 c).arrAt_eq_of_cover 2 (total m c) (flushed_eq m c) fun i =>
    ⟨last, (flush0_2 last).mpr rfl, by
      show i ∈ ((View.whole main_v0).slice (win0_2.rect last)).set
      rw [View.set_slice_whole, Rect.mem_set_unit]
      intro a
      have h0 : (i 0 : Nat) < 1 := (i 0).isLt
      have h1 : (i 1 : Nat) < 1 := (i 1).isLt
      match a with
      | ⟨0, _⟩ => show win0_2.index last 0 * win0_2.size 0 ≤ (i 0 : Nat) ∧ (i 0 : Nat) < win0_2.index last 0 * win0_2.size 0 + win0_2.xsize (grid0.coords last) 0
                  rw [index_zero, show win0_2.xsize (grid0.coords last) 0 = 1 from rfl]; omega
      | ⟨1, _⟩ => show win0_2.index last 1 * win0_2.size 1 ≤ (i 1 : Nat) ∧ (i 1 : Nat) < win0_2.index last 1 * win0_2.size 1 + win0_2.xsize (grid0.coords last) 1
                  rw [index_zero, show win0_2.xsize (grid0.coords last) 1 = 1 from rfl]; omega⟩

/-- The three host operations after the region, from what the region leaves: the result array viewed as a scalar,
    divided by the constant `4000000.0`. -/
theorem tail_eq (c : Dev nD) :
    Pipeline.afterTail₀ cfgs (dats m) 0 (V0 m) [hostOps1] c main_v2
      = Host.divf (shapeCast S_ (total m c) shapeCasts_S1x1_S_) (constant S_ .f32 0x4A742400#32) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v0)
      = total m c := (Pipeline.withArrays_arr spec0 launch0.win.arr_inj c _ _ 2).trans (final_o m c)
  rw [e]
  rfl

/-- The run, read: the program's result at the running total's mean, the two arguments unchanged. -/
theorem run : θ_run defs (onTc (τ := τ) (main (F := F))) ⟨m, fun _ => 0, ρ⟩ fun r => ∀ c : Dev nD,
      r.2.mem ((c.tc : Thread nD τ).loc main_v2)
        = Host.divf (shapeCast S_ (total m c) shapeCasts_S1x1_S_) (constant S_ .f32 0x4A742400#32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunningSum

end
-- ==== Proof.PairLoss.lean ====
/-
  The loss of one pair of boxes, and of a batch of pairs.

  A box is four numbers (x₁, y₁, x₂, y₂). Two boxes `o` and `t` overlap in the rectangle whose lower corner is the
  coordinatewise maximum of the lower corners and whose upper corner is the coordinatewise minimum of the upper corners;
  its width and height are clamped below at zero, so disjoint boxes overlap in area `0`. The loss of the pair is
  `1 - overlap / (area o + area t - overlap)`, read on the extended reals with the exact operations (the quotient is the
  extended reals' `Ideal.div`, whatever the denominator). The two float words `0.0` and `1.0` are kept as words: both
  programs print the same ones, so their values are never needed.

  The loss of a batch is the plain sum of its pairs' losses. On the extended reals `+` is commutative and associative
  with no side condition, so this sum may be taken in any grouping: no finiteness of the entries is needed.
-/
import Idealize.ShloMosaic.PureOps.Ideal
import Idealize.ShloMosaic.Lib.ValueIdx

noncomputable section

open scoped BigOperators

namespace Cert.BoxLoss

open Idealize.ShloMosaic Idealize.ShloMosaic.ValueIdx

/-- The float word `0.0`, as the extended real it denotes. -/
abbrev zeroW : EReal := Ideal.ofBits .f32 0x00000000#32
/-- The float word `1.0`, as the extended real it denotes. -/
abbrev oneW : EReal := Ideal.ofBits .f32 0x3F800000#32

/-- The overlap's extent along one axis: from the larger lower end to the smaller upper end, not below zero. -/
def extent (oLo oHi tLo tHi : EReal) : EReal := max (min oHi tHi - max oLo tLo) zeroW

/-- The loss of one pair of boxes `(o0, o1, o2, o3)` and `(t0, t1, t2, t3)`: one minus overlap over union. -/
def pairLoss (o0 o1 o2 o3 t0 t1 t2 t3 : EReal) : EReal :=
  oneW - Ideal.div (extent o0 o2 t0 t2 * extent o1 o3 t1 t3)
    ((o2 - o0) * (o3 - o1) + (t2 - t0) * (t3 - t1) - extent o0 o2 t0 t2 * extent o1 o3 t1 t3)

/-- The clamp at zero does not care on which side the zero is written. -/
theorem extent_comm (oLo oHi tLo tHi : EReal) : max zeroW (min oHi tHi - max oLo tLo) = extent oLo oHi tLo tHi :=
  max_comm _ _

/-- The loss of row `r` of two `[n, 4]` arrays of boxes. -/
def rowLoss {n : Nat} (o t : (⟨2, ![n, 4]⟩ : Shape).Idx → EReal) (r : Fin n) : EReal :=
  pairLoss (o (ix2 r 0)) (o (ix2 r 1)) (o (ix2 r 2)) (o (ix2 r 3)) (t (ix2 r 0)) (t (ix2 r 1)) (t (ix2 r 2)) (t (ix2 r 3))

/-- A row's loss depends only on the row's eight entries. -/
theorem rowLoss_congr {n n' : Nat} (o t : (⟨2, ![n, 4]⟩ : Shape).Idx → EReal) (o' t' : (⟨2, ![n', 4]⟩ : Shape).Idx → EReal)
    (r : Fin n) (r' : Fin n') (ho : ∀ c : Fin 4, o (ix2 r c) = o' (ix2 r' c)) (ht : ∀ c : Fin 4, t (ix2 r c) = t' (ix2 r' c)) :
    rowLoss o t r = rowLoss o' t' r' := by
  unfold rowLoss
  rw [ho 0, ho 1, ho 2, ho 3, ht 0, ht 1, ht 2, ht 3]

end Cert.BoxLoss

end
-- ==== Proof.LibBlockSum.lean ====
/-
  Regrouping a finite sum into consecutive blocks.

  A sum over `Fin (n * b)` is the sum, over the `n` blocks, of each block's `b` consecutive terms: entry
  `q + b * j` is term `q` of block `j`. Only commutativity and associativity of `+` are used, so the law
  holds in every additive commutative monoid — in particular on the extended reals, where regrouping a sum
  needs no finiteness of its terms.
-/
import Mathlib.Data.Fintype.BigOperators
import Mathlib.Logic.Equiv.Fin.Basic

namespace Cert.BlockSum

/-- A sum over `Fin (n * b)` split into `n` consecutive blocks of length `b`. -/
theorem sum_blocks {M : Type*} [AddCommMonoid M] (n b : ℕ) (f : Fin (n * b) → M) :
    ∑ k, f k = ∑ j : Fin n, ∑ q : Fin b, f (finProdFinEquiv (j, q)) := by
  rw [← Fintype.sum_prod_type' (fun j q => f (finProdFinEquiv (j, q)))]
  exact (Equiv.sum_comp finProdFinEquiv f).symm

/-- The position of term `q` of block `j`. -/
theorem finProdFinEquiv_val {n b : ℕ} (j : Fin n) (q : Fin b) :
    (finProdFinEquiv (j, q)).val = q.val + b * j.val := rfl

end Cert.BlockSum
-- ==== Proof.LibTiledSum.lean ====
/-
  A vector summed in two stages through a tiled view.

  A flat vector of `n = a * b` entries is viewed as an `[a, b]` array (entry `(k, l)` is entry `k * b + l` of the vector), summed
  along its rows, the `a` row sums viewed as a column `[a, 1]` and summed down it, and the one result viewed `[1, 1]`. On the
  extended reals this is the plain sum of the vector's entries: a sum over `Fin (a * b)` regrouped into `a` consecutive blocks
  of length `b`, which uses only that `+` is commutative and associative, so no entry need be finite.

  On the way: the four views read at an index (a flat vector as a tile, a vector as a column, a column as a vector, one entry
  as `[1, 1]`), the index a one-axis reduction of an `[a, b]` array inserts written by coordinates, and the row sums and column
  sums of an `[a, b]` array of extended reals as plain sums. All sizes are arbitrary.
-/
import Idealize.ShloMosaic.PureOps.Ideal.Laws
import Idealize.ShloMosaic.Lib.ValueIdx
import Idealize.ShloMosaic.Lib.Pipeline.Value
import proofs.«171073_j31336081391705_2_alg».proof.Proof.LibBlockSum

noncomputable section

open scoped BigOperators

namespace Cert.TiledSum

open Idealize.ShloMosaic Idealize.ShloMosaic.ValueIdx

section Layout
variable {α : Type}

/-- A flat vector of length `n` viewed as `[a, b]` reads, at `(k, l)`, its entry `k * b + l`. -/
theorem view_tile {a b n : Nat} (x : (⟨1, ![n]⟩ : Shape).Idx → α) (h : (⟨1, ![n]⟩ : Shape).ShapeCasts ⟨2, ![a, b]⟩)
    (k : Fin a) (l : Fin b) (q : Fin n) (hq : q.val = k.val * b + l.val) :
    shapeCast ⟨2, ![a, b]⟩ x h (ix2 k l) = x (ix1 q) :=
  shapeCast_apply x h _ _ (by rw [Shape.rowMajor_val_two, Shape.rowMajor_val_one]; exact hq)

/-- A vector `[a]` viewed as a column `[a, 1]` reads, at `(k, u)`, its entry `k`. -/
theorem view_column {a : Nat} (x : (⟨1, ![a]⟩ : Shape).Idx → α) (h : (⟨1, ![a]⟩ : Shape).ShapeCasts ⟨2, ![a, 1]⟩)
    (k : Fin a) (u : Fin 1) : shapeCast ⟨2, ![a, 1]⟩ x h (ix2 k u) = x (ix1 k) :=
  shapeCast_apply x h _ _ (by
    have hu : u.val = 0 := by omega
    rw [Shape.rowMajor_val_two, Shape.rowMajor_val_one]
    show k.val = k.val * 1 + u.val
    omega)

/-- A column `[a, 1]` viewed as a vector `[a]` reads, at `k`, its entry `(k, 0)`. -/
theorem view_flat {a : Nat} (x : (⟨2, ![a, 1]⟩ : Shape).Idx → α) (h : (⟨2, ![a, 1]⟩ : Shape).ShapeCasts ⟨1, ![a]⟩)
    (k : Fin a) : shapeCast ⟨1, ![a]⟩ x h (ix1 k) = x (ix2 k (0 : Fin 1)) :=
  shapeCast_apply x h _ _ (by
    rw [Shape.rowMajor_val_two, Shape.rowMajor_val_one]
    show k.val * 1 + 0 = k.val
    omega)

/-- A one-entry vector `[1]` viewed as `[1, 1]` reads its one entry everywhere. -/
theorem view_unit (x : (⟨1, ![1]⟩ : Shape).Idx → α) (h : (⟨1, ![1]⟩ : Shape).ShapeCasts ⟨2, ![1, 1]⟩)
    (j : (⟨2, ![1, 1]⟩ : Shape).Idx) : shapeCast ⟨2, ![1, 1]⟩ x h j = x (ix1 (0 : Fin 1)) :=
  shapeCast_apply x h _ _ (by
    have h0 : (j 0).val = 0 := by have h : (j 0).val < 1 := (j 0).isLt; omega
    have h1 : (j 1).val = 0 := by have h : (j 1).val < 1 := (j 1).isLt; omega
    rw [Shape.rowMajor_val_two, Shape.rowMajor_val_one]
    show 0 = (j 0).val * 1 + (j 1).val
    omega)

end Layout

/-- A rank-1 index is its one coordinate. -/
def idxEquiv1 {n : Nat} : (⟨1, ![n]⟩ : Shape).Idx ≃ Fin n where
  toFun j := j 0
  invFun a := ix1 a
  left_inv j := (eq_ix1 j).symm
  right_inv _ := rfl

/-- A sum over the indices of a vector `[n]` is the sum over its coordinate. -/
theorem sum_idx1 {M : Type*} [AddCommMonoid M] {n : Nat} (f : (⟨1, ![n]⟩ : Shape).Idx → M) :
    ∑ j, f j = ∑ a : Fin n, f (ix1 a) :=
  (Equiv.sum_comp idxEquiv1.symm f).symm

/-- Reducing the last axis of `[a, b]`: over the result's index `k`, the source index with coordinate `l` inserted is `(k, l)`. -/
theorem lift_last {a b : Nat} (h : (⟨2, ![a, b]⟩ : Shape).Reduces [1] ⟨1, ![a]⟩) (k : Fin a) (l : Fin b) :
    h.lift (ix1 k) l = ix2 k l := by
  funext c
  match c with
  | ⟨0, _⟩ => exact Fin.ext rfl
  | ⟨1, _⟩ => exact Fin.ext rfl

/-- Reducing the first axis of `[a, b]`: over the result's index `l`, the source index with coordinate `k` inserted is `(k, l)`. -/
theorem lift_first {a b : Nat} (h : (⟨2, ![a, b]⟩ : Shape).Reduces [0] ⟨1, ![b]⟩) (l : Fin b) (k : Fin a) :
    h.lift (ix1 l) k = ix2 k l := by
  funext c
  match c with
  | ⟨0, _⟩ => exact Fin.ext rfl
  | ⟨1, _⟩ => exact Fin.ext rfl

variable {φ : FTy}

/-- The sums along the rows of an `[a, b]` array of extended reals. -/
theorem row_sums {a b : Nat} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (k : Fin a) :
    multiReduction .add [1] ⟨1, ![a]⟩ src acc h hφ hacc (ix1 k) = ∑ l : Fin b, src (ix2 k l) := by
  rw [Ideal.multiReduction_add_single]
  exact Finset.sum_congr rfl fun l _ => congrArg src (lift_last h k l)

/-- The sums down the columns of an `[a, b]` array of extended reals. -/
theorem column_sums {a b : Nat} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (l : Fin b) :
    multiReduction .add [0] ⟨1, ![b]⟩ src acc h hφ hacc (ix1 l) = ∑ k : Fin a, src (ix2 k l) := by
  rw [Ideal.multiReduction_add_single]
  exact Finset.sum_congr rfl fun k _ => congrArg src (lift_first h l k)

/-- A flat vector of `n = a * b` extended reals viewed `[a, b]`, summed along its rows, the row sums viewed as a column
    `[a, 1]` and summed down it, the one result viewed `[1, 1]`: the plain sum of the vector's entries. Only the regrouping of
    a sum into consecutive blocks is used, so no entry need be finite. -/
theorem two_stage_sum {a b n : Nat} (hn : n = a * b) (x : FVec Ideal ⟨1, ![n]⟩ φ) (acc : BitVec φ.bits)
    (hφ : FKind.Formats φ) (hacc : acc = FKind.add.neutral φ hφ)
    (h1 : (⟨1, ![n]⟩ : Shape).ShapeCasts ⟨2, ![a, b]⟩) (hr : (⟨2, ![a, b]⟩ : Shape).Reduces [1] ⟨1, ![a]⟩)
    (h2 : (⟨1, ![a]⟩ : Shape).ShapeCasts ⟨2, ![a, 1]⟩) (hc : (⟨2, ![a, 1]⟩ : Shape).Reduces [0] ⟨1, ![1]⟩)
    (h3 : (⟨1, ![1]⟩ : Shape).ShapeCasts ⟨2, ![1, 1]⟩) (j : (⟨2, ![1, 1]⟩ : Shape).Idx) :
    shapeCast ⟨2, ![1, 1]⟩ (multiReduction .add [0] ⟨1, ![1]⟩ (shapeCast ⟨2, ![a, 1]⟩
        (multiReduction .add [1] ⟨1, ![a]⟩ (shapeCast ⟨2, ![a, b]⟩ x h1) acc hr hφ hacc) h2) acc hc hφ hacc) h3 j
      = ∑ q : Fin n, x (ix1 q) := by
  subst hn
  rw [view_unit, column_sums, Cert.BlockSum.sum_blocks a b (fun q => x (ix1 q))]
  refine Finset.sum_congr rfl fun k _ => ?_
  rw [view_column, row_sums]
  refine Finset.sum_congr rfl fun l _ => ?_
  exact view_tile x h1 k l _ (by rw [Cert.BlockSum.finProdFinEquiv_val]; ring)

end Cert.TiledSum

end
-- ==== Proof.BlockLoss.lean ====
/-
  What one grid point adds: the sum of its 3200 rows' losses.

  At a grid point the body holds a block of 3200 rows of each argument, `x0` and `x1`, both `[3200, 4]`. It cuts the four
  columns apart, forms for every row the overlap's two extents, the two areas and `1 - overlap / union`, a vector of 3200
  losses, views that vector as a `[25, 128]` tile, sums along the 128 lanes, then down the 25 sublanes. Read on the extended
  reals this is the plain sum of the 3200 losses (the two-stage sum through a tiled view is a regrouping), and row `q`'s loss
  is the loss of the pair of boxes in row `q` of the two blocks: each column slice reads the block's column, each
  `[3200, 1] → [3200]` view reads the column's entry `q`, and the arithmetic between them is pointwise.
-/
import proofs.«171073_j31336081391705_2_alg».proof.Proof.Gen.KernelIdeal.Skeleton
import proofs.«171073_j31336081391705_2_alg».proof.Proof.PairLoss
import proofs.«171073_j31336081391705_2_alg».proof.Proof.LibTiledSum
import Idealize.ShloMosaic.Lib.ValueLayout

set_option maxRecDepth 16384

noncomputable section

open scoped BigOperators

namespace Cert.KernelIdeal.BlockLoss

open Cert.KernelIdeal Cert.KernelIdeal.Gen Idealize.ShloMosaic Idealize.ShloMosaic.ValueIdx Cert.BoxLoss Cert.TiledSum

/-- The value a grid point computes from its two blocks, at its one index: the sum over the block's rows of the row's loss. -/
theorem blockSum_apply (x0 x1 : Vec Ideal S3200x4 .f32) (j : S1x1.Idx) :
    k0_pay3 (F := Ideal) x0 x1 j = ∑ q : Fin 3200, rowLoss (n := 3200) x0 x1 q := by
  unfold k0_pay3
  dsimp only
  -- the tile view, the lane sums, the sublane sum: the plain sum of the 3200 losses
  refine (two_stage_sum (a := 25) (b := 128) (n := 3200) rfl _ _ _ _ _ _ _ _ _ j).trans ?_
  refine Finset.sum_congr rfl fun q _ => ?_
  -- row `q`: the pointwise arithmetic at `q`, each column read where its slice and its flat view say
  simp only [subf_apply, divf_apply, mulf_apply, addf_apply, maximumf_apply, minimumf_apply, broadcast_apply, view_flat,
    slice2_axis1_eq]
  rfl

end Cert.KernelIdeal.BlockLoss

end
-- ==== Proof.KernelMean.lean ====
/-
  The kernel's total, on the extended reals: the sum over all 4,000,000 rows of the row's loss.

  Grid point `t` holds rows `3200 t … 3200 t + 3199` of each argument: its two input blocks have block index `(t, 0)`, so
  entry `(q, col)` of a block is entry `(3200 t + q, col)` of the array. Hence the value the point adds (the sum of its
  block's 3200 row losses, Proof/BlockLoss.lean) is block `t` of the global sum, the rows counted block by block; the
  running value after point `n` (Proof/RunningSum.lean) is the sum of blocks `0 … n` — the zero it starts from is the
  extended real `0`, a unit of `+` —, and after the last point, 1249, it is all 1250 blocks, which is the sum over the
  `1250 * 3200 = 4000000` rows: a sum regrouped into consecutive blocks. No entry of the arguments need be finite.
-/
import proofs.«171073_j31336081391705_2_alg».proof.Proof.RunningSum
import proofs.«171073_j31336081391705_2_alg».proof.Proof.BlockLoss

set_option maxRecDepth 16384

noncomputable section

open scoped BigOperators

open Idealize.ShloMosaic Idealize.ShloMosaic.TcCoe Idealize.SL.Sem

namespace Cert.KernelIdeal.MeanLoss

open Cert.KernelIdeal Cert.KernelIdeal.Gen Cert.KernelIdeal.RunningSum Cert.KernelIdeal.BlockLoss
open Idealize.ShloMosaic.ValueIdx Cert.BoxLoss Cert.TiledSum

variable (m : (ℓ : Loc nD τ sig) → Buf (Elt Ideal) ℓ)

/-- The input windows' block index at point `t` is `(t, 0)`: decided over the grid. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)

/-- Entry `(q, col)` of the first argument's block at point `t` is entry `(3200 t + q, col)` of the argument. -/
theorem block0_apply (c : Dev nD) (t : Fin cfg0.N) (q : Fin 3200) (col : Fin 4) (r : Fin 4000000)
    (hr : r.val = q.val + 3200 * t.val) :
    (iblk m c 0 t : Vec Ideal S3200x4 .f32) (ix2 q col) = m ((c : Thread nD τ).loc main_arg0) (ix2 r col) := by
  have hi := index0 t
  unfold iblk
  rw [View.read_apply]
  show V m c main_arg0 _ = m (c.tc.loc main_arg0) _
  unfold V
  congr 1
  funext a
  apply Fin.ext
  match a with
  | ⟨0, _⟩ => show win0_0.index t 0 * 3200 + 1 * q.val = r.val; rw [hi.1]; omega
  | ⟨1, _⟩ => show win0_0.index t 1 * 4 + 1 * col.val = col.val; rw [hi.2]; omega

/-- The same for the second argument. -/
theorem block1_apply (c : Dev nD) (t : Fin cfg0.N) (q : Fin 3200) (col : Fin 4) (r : Fin 4000000)
    (hr : r.val = q.val + 3200 * t.val) :
    (iblk m c 1 t : Vec Ideal S3200x4 .f32) (ix2 q col) = m ((c : Thread nD τ).loc main_arg1) (ix2 r col) := by
  have hi := index1 t
  unfold iblk
  rw [View.read_apply]
  show V m c main_arg1 _ = m (c.tc.loc main_arg1) _
  unfold V
  congr 1
  funext a
  apply Fin.ext
  match a with
  | ⟨0, _⟩ => show win0_1.index t 0 * 3200 + 1 * q.val = r.val; rw [hi.1]; omega
  | ⟨1, _⟩ => show win0_1.index t 1 * 4 + 1 * col.val = col.val; rw [hi.2]; omega

/-- 1250 blocks of 3200 rows are the 4,000,000 rows. -/
theorem cells : 1250 * 3200 = 4000000 := by norm_num

/-- The loss of the row with cell number `r`, the rows counted block by block. -/
def lossAt (c : Dev nD) (r : Fin (1250 * 3200)) : EReal :=
  rowLoss (n := 4000000) (m ((c : Thread nD τ).loc main_arg0)) (m ((c : Thread nD τ).loc main_arg1)) (Fin.cast cells r)

/-- What point `t` adds is block `t` of the global sum of row losses. -/
theorem pointValue (c : Dev nD) (t : Fin cfg0.N) (j : S1x1.Idx) (t' : Fin 1250) (ht : t'.val = t.val) :
    k0_pay3 (F := Ideal) (iblk m c 0 t) (iblk m c 1 t) j = ∑ q : Fin 3200, lossAt m c (finProdFinEquiv (t', q)) := by
  refine (blockSum_apply (iblk m c 0 t) (iblk m c 1 t) j).trans ?_
  refine Finset.sum_congr rfl fun q _ => ?_
  exact rowLoss_congr _ _ _ _ q _
    (fun col => block0_apply m c t q col _ (by show q.val + 3200 * t'.val = q.val + 3200 * t.val; rw [ht]))
    (fun col => block1_apply m c t q col _ (by show q.val + 3200 * t'.val = q.val + 3200 * t.val; rw [ht]))

/-- Block `t'` of the global sum, for every natural number `t'` (zero past the last block): the summand of the running value. -/
def pointLoss (c : Dev nD) (t' : ℕ) : EReal :=
  if h : t' < 1250 then ∑ q : Fin 3200, lossAt m c (finProdFinEquiv (⟨t', h⟩, q)) else 0

theorem pointLoss_of_lt (c : Dev nD) (t' : ℕ) (h : t' < 1250) :
    pointLoss m c t' = ∑ q : Fin 3200, lossAt m c (finProdFinEquiv (⟨t', h⟩, q)) := by
  unfold pointLoss
  exact dif_pos h

/-- The running value after point `n` is the sum of blocks `0 … n`: by induction on the point. -/
theorem chain_apply (c : Dev nD) : ∀ (n : ℕ) (h : n < cfg0.N) (j : S1x1.Idx),
    chain (F := Ideal) m c n h j = ∑ t' ∈ Finset.range (n + 1), pointLoss m c t'
  | 0, h, j => by
    show Ideal.ofBits .f32 0x00000000#32 + k0_pay3 (F := Ideal) (iblk m c 0 ⟨0, h⟩) (iblk m c 1 ⟨0, h⟩) j = _
    rw [pointValue m c ⟨0, h⟩ j ⟨0, by decide⟩ rfl, Ideal.ofBits_zero_f32, zero_add, Finset.sum_range_one]
    exact (pointLoss_of_lt m c 0 (by decide)).symm
  | n + 1, h, j => by
    have hn : n + 1 < 1250 := lt_of_lt_of_eq h (show cfg0.N = 1250 from N_0)
    show chain (F := Ideal) m c n _ j + k0_pay3 (F := Ideal) (iblk m c 0 ⟨n + 1, h⟩) (iblk m c 1 ⟨n + 1, h⟩) j = _
    rw [chain_apply c n _ j, pointValue m c ⟨n + 1, h⟩ j ⟨n + 1, hn⟩ rfl, Finset.sum_range_succ _ (n + 1)]
    exact congrArg _ (pointLoss_of_lt m c (n + 1) hn).symm

/-- The running value after the last point is the sum over all rows of the row's loss. -/
theorem total_apply (c : Dev nD) (j : S1x1.Idx) :
    total (F := Ideal) m c j
      = ∑ r : Fin 4000000, rowLoss (m ((c : Thread nD τ).loc main_arg0)) (m ((c : Thread nD τ).loc main_arg1)) r := by
  show chain (F := Ideal) m c 1249 lastLt j = _
  rw [chain_apply]
  calc ∑ t' ∈ Finset.range 1250, pointLoss m c t'
      = ∑ t : Fin 1250, pointLoss m c t.val := (Fin.sum_univ_eq_sum_range (pointLoss m c) 1250).symm
    _ = ∑ t : Fin 1250, ∑ q : Fin 3200, lossAt m c (finProdFinEquiv (t, q)) :=
        Finset.sum_congr rfl fun t _ => pointLoss_of_lt m c t.val t.isLt
    _ = ∑ r' : Fin (1250 * 3200), lossAt m c r' := (Cert.BlockSum.sum_blocks 1250 3200 (lossAt m c)).symm
    _ = _ := Equiv.sum_comp (finCongr cells) (fun r => rowLoss (m ((c : Thread nD τ).loc main_arg0)) (m ((c : Thread nD τ).loc main_arg1)) r)

end Cert.KernelIdeal.MeanLoss

end
-- ==== Proof.ReferenceMean.lean ====
/-
  The reference's total, on the extended reals: the same sum over all 4,000,000 rows of the row's loss.

  The reference forms the same quantities for all rows at once: column slices of the two arguments, the overlap's two
  extents (its clamp at zero written `max 0 x` where the kernel's is `max x 0`: the same number), the two areas,
  `1 - overlap / union` with the host's quotient, which on the extended reals is the same quotient as the kernel's; then
  one sum of the 4,000,000 losses from the initial value `0.0`, the extended real `0`. Read at row `r`, every slice and
  every `[4000000, 1] → [4000000]` view lands on entry `(r, col)` of an argument for the evident column.
-/
import proofs.«171073_j31336081391705_2_alg».proof.Proof.Gen.ReferenceIdeal.Read
import proofs.«171073_j31336081391705_2_alg».proof.Proof.PairLoss
import proofs.«171073_j31336081391705_2_alg».proof.Proof.LibTiledSum

set_option maxRecDepth 16384

noncomputable section

open scoped BigOperators

namespace Cert.ReferenceIdeal.MeanLoss

open Cert.ReferenceIdeal Cert.ReferenceIdeal.Gen Cert.ReferenceIdeal.Read Idealize.ShloMosaic Idealize.ShloMosaic.ValueIdx Cert.BoxLoss
open Cert.TiledSum

/-- A `[4000000, 4]` index is determined by its two coordinates. -/
theorem col_eq (k : S4000000x4.Idx) (r : Fin 4000000) (c : Fin 4) (h0 : (k 0).val = r.val) (h1 : (k 1).val = c.val) :
    k = ix2 r c :=
  funext fun a => by
    match a with
    | ⟨0, _⟩ => exact Fin.ext h0
    | ⟨1, _⟩ => exact Fin.ext h1

/-- The reference's vector of losses at row `r` is the loss of row `r` of the two arguments. -/
theorem row_apply (x0 x1 : (⟨S4000000x4, .f32⟩ : BufTy).Contents (Elt Ideal)) (r : Fin 4000000) :
    val_main_v39 (F := Ideal) x0 x1 (ix1 r) = rowLoss (n := 4000000) x0 x1 r := by
  simp only [val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_0_apply, val_main_cst_apply, val_main_call0_v0_apply, val_main_call0_v1_apply]
  rw [col_eq (idx_main_v0 (idx_main_v8 (idx_main_v9 (ix1 r)))) r 0 (Nat.div_one _) rfl,
    col_eq (idx_main_v1 (idx_main_v8 (idx_main_v9 (ix1 r)))) r 0 (Nat.div_one _) rfl,
    col_eq (idx_main_v3 (idx_main_v8 (idx_main_v9 (ix1 r)))) r 2 (Nat.div_one _) rfl,
    col_eq (idx_main_v4 (idx_main_v8 (idx_main_v9 (ix1 r)))) r 2 (Nat.div_one _) rfl,
    col_eq (idx_main_v0 (idx_main_v10 (idx_main_v11 (ix1 r)))) r 1 (Nat.div_one _) rfl,
    col_eq (idx_main_v1 (idx_main_v10 (idx_main_v11 (ix1 r)))) r 1 (Nat.div_one _) rfl,
    col_eq (idx_main_v3 (idx_main_v10 (idx_main_v11 (ix1 r)))) r 3 (Nat.div_one _) rfl,
    col_eq (idx_main_v4 (idx_main_v10 (idx_main_v11 (ix1 r)))) r 3 (Nat.div_one _) rfl,
    col_eq (idx_main_v13 (idx_main_v14 (ix1 r))) r 2 (Nat.div_one _) rfl,
    col_eq (idx_main_v15 (idx_main_v16 (ix1 r))) r 0 (Nat.div_one _) rfl,
    col_eq (idx_main_v18 (idx_main_v19 (ix1 r))) r 3 (Nat.div_one _) rfl,
    col_eq (idx_main_v20 (idx_main_v21 (ix1 r))) r 1 (Nat.div_one _) rfl,
    col_eq (idx_main_v24 (idx_main_v25 (ix1 r))) r 2 (Nat.div_one _) rfl,
    col_eq (idx_main_v26 (idx_main_v27 (ix1 r))) r 0 (Nat.div_one _) rfl,
    col_eq (idx_main_v29 (idx_main_v30 (ix1 r))) r 3 (Nat.div_one _) rfl,
    col_eq (idx_main_v31 (idx_main_v32 (ix1 r))) r 1 (Nat.div_one _) rfl]
  unfold rowLoss pairLoss
  rw [← extent_comm, ← extent_comm]
  rfl

/-- The reference's sum is the sum over all rows of the row's loss. -/
theorem total_apply (x0 x1 : (⟨S4000000x4, .f32⟩ : BufTy).Contents (Elt Ideal)) (i : S_.Idx) :
    val_main_v40 (F := Ideal) x0 x1 i = ∑ r : Fin 4000000, rowLoss (n := 4000000) x0 x1 r := by
  rw [val_main_v40_apply, val_main_cst_1_apply]
  show Ideal.ofBits .f32 0x00000000#32 + _ = _
  rw [Ideal.ofBits_zero_f32, zero_add, sum_idx1]
  exact Finset.sum_congr rfl fun r _ => row_apply x0 x1 r

end Cert.ReferenceIdeal.MeanLoss

end
-- ==== Proof.lean ====
/-
  The mean loss `1 - IoU` over 4,000,000 pairs of boxes: the kernel against its reference.

  Both programs compute, for every row `r`, the loss of the pair of boxes in row `r` of the two arguments
  (Proof/PairLoss.lean), sum the 4,000,000 losses, and divide by `4000000.0` on the host. The reference sums them in one
  reduction from `0`. The kernel sums 3200 rows at each of 1250 grid points — as a `[25, 128]` tile, along the lanes and
  then down the sublanes —, accumulates the points' values in a `[1, 1]` output block that it zeroes at the first point,
  and writes that block back once, after the last. On the extended reals `+` is commutative and associative without
  any side condition, so both totals are the same sum (Proof/KernelMean.lean, Proof/ReferenceMean.lean), whatever the
  entries: the arguments' finiteness is never used. The final quotient is the same host operation on the same total
  and the same word `4000000.0`, never opened.

  The three frames: the kernel's and its idealization's are the generated frame runs; the reference's is its generated
  run with the result dropped. The idealization rewrote nothing, so `preserves` states nothing.
-/
import proofs.«171073_j31336081391705_2_alg».proof.Defs
import proofs.«171073_j31336081391705_2_alg».proof.Proof.Gen.Kernel
import proofs.«171073_j31336081391705_2_alg».proof.Proof.Gen.Kernel.Skeleton
import proofs.«171073_j31336081391705_2_alg».proof.Proof.Gen.Kernel.Launch
import proofs.«171073_j31336081391705_2_alg».proof.Proof.Gen.Kernel.Points
import proofs.«171073_j31336081391705_2_alg».proof.Proof.Gen.Kernel.Frame
import proofs.«171073_j31336081391705_2_alg».proof.Proof.Gen.KernelIdeal
import proofs.«171073_j31336081391705_2_alg».proof.Proof.Gen.KernelIdeal.Skeleton
import proofs.«171073_j31336081391705_2_alg».proof.Proof.Gen.KernelIdeal.Launch
import proofs.«171073_j31336081391705_2_alg».proof.Proof.Gen.KernelIdeal.Points
import proofs.«171073_j31336081391705_2_alg».proof.Proof.Gen.KernelIdeal.Frame
import proofs.«171073_j31336081391705_2_alg».proof.Proof.Gen.ReferenceIdeal
import proofs.«171073_j31336081391705_2_alg».proof.Proof.Gen.ReferenceIdeal.Run
import proofs.«171073_j31336081391705_2_alg».proof.Proof.Gen.ReferenceIdeal.Read
import proofs.«171073_j31336081391705_2_alg».proof.Proof.Gen.Pre_finite_inputs
import proofs.«171073_j31336081391705_2_alg».proof.Proof.KernelMean
import proofs.«171073_j31336081391705_2_alg».proof.Proof.ReferenceMean
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's mean of arguments that agree with the kernel's is the kernel's mean: the two totals are the same sum
    of row losses, and the quotient by `4000000.0` is the same operation on both. -/
theorem mean_eq (m : (ℓ : Loc Cert.KernelIdeal.nD Cert.KernelIdeal.τ Cert.KernelIdeal.sig) → Buf (Elt Ideal) ℓ)
    (c : Dev Cert.KernelIdeal.nD) :
    (Cert.ReferenceIdeal.Read.val_main_v41 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) : FVec Ideal Cert.KernelIdeal.S_ .f32)
      = Host.divf (F := Ideal) (shapeCast Cert.KernelIdeal.S_ (Cert.KernelIdeal.RunningSum.total m c) Cert.KernelIdeal.Facts₀.shapeCasts_S1x1_S_)
          (constant (F := Ideal) Cert.KernelIdeal.S_ .f32 0x4A742400#32) := by
  have e : (Cert.ReferenceIdeal.Read.val_main_v40 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) : FVec Ideal Cert.KernelIdeal.S_ .f32)
      = shapeCast Cert.KernelIdeal.S_ (Cert.KernelIdeal.RunningSum.total m c) Cert.KernelIdeal.Facts₀.shapeCasts_S1x1_S_ :=
    funext fun i => (Cert.ReferenceIdeal.MeanLoss.total_apply _ _ i).trans (Cert.KernelIdeal.MeanLoss.total_apply m c _).symm
  unfold Cert.ReferenceIdeal.Read.val_main_v41
  rw [e]
  rfl

theorem algebraic : Cert.algebraic_KernelIdeal_ReferenceIdeal := by
  intro m ρ m' ρ' _ hagree
  refine ⟨_, Cert.KernelIdeal.RunningSum.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, (hagree c).1, (hagree c).2]
  exact mean_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
